-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S2048x1024 : Shape := ⟨2, ![2048, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S32768x1024 .f32) (main_arg1 : FVec F S2048x1024 .f32) (main_arg2 : FVec F S2048x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S32768x1024 : Shape := ⟨2, ![32768, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 20
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S1024x2048, .f32⟩
  | .hbm, ⟨14, _⟩ => ⟨S1024x2048, .bf16⟩
  | .hbm, ⟨15, _⟩ => ⟨S2048x1024, .bf16⟩
  | .hbm, ⟨16, _⟩ => ⟨S32768x1024, .f32⟩
  | .hbm, ⟨17, _⟩ => ⟨S2048x1024, .f32⟩
  | .hbm, ⟨18, _⟩ => ⟨S_, .f32⟩
  | .hbm, ⟨19, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  transposes_S2048x1024_S1024x2048_1_0 : S2048x1024.Transposes [1, 0] S1024x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reducesTo_S2048x1024_S_d0_1 : S2048x1024.ReducesTo [0, 1] S_
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S2048x1024 : Shape := ⟨2, ![2048, 1024]⟩
abbrev S_ : Shape := ⟨0, ![]⟩
abbrev S32768 : Shape := ⟨1, ![32768]⟩
abbrev S32768x1 : Shape := ⟨2, ![32768, 1]⟩
abbrev S2048 : Shape := ⟨1, ![2048]⟩
abbrev S2048x1 : Shape := ⟨2, ![2048, 1]⟩
abbrev S32768x2048 : Shape := ⟨2, ![32768, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2048x1024, .f32⟩
  | .hbm, ⟨2, _⟩ => ⟨S2048x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S32768x1024, .f32⟩
  | .hbm, ⟨12, _⟩ => ⟨S32768x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S2048x1024, .f32⟩
  | .hbm, ⟨44, _⟩ => ⟨S_, .f32⟩
  | .hbm, ⟨45, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S32768x2048 : S_.BroadcastsInDim S32768x2048 (![] : Fin 0 → Fin S32768x2048.rank)
  reducesTo_S2048x1024_S_d0_1 : S2048x1024.ReducesTo [0, 1] S_
  dot_S32768x1024_S2048x1024_S32768x2048_1_1_0_0_n_n_wf : DotDims.WF S32768x1024 S2048x1024 S32768x2048 [1] [1] [0] [0] [] []
  dot_S32768x2048_S2048x1024_S32768x1024_1_0_0_1_n_n_wf : DotDims.WF S32768x2048 S2048x1024 S32768x1024 [1] [0] [0] [1] [] []

variable [Facts₀]

def dot_S32768x1024_S2048x1024_S32768x2048_1_1_0_0_n_n : DotDims S32768x1024 S2048x1024 S32768x2048 where
  lhsContracting := [1]
  rhsContracting := [1]
  lhsNonContracting := [0]
  rhsNonContracting := [0]
  lhsBatch := []
  rhsBatch := []
  wf := dot_S32768x1024_S2048x1024_S32768x2048_1_1_0_0_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf

class Facts : Prop extends Facts₀ where

variable [Facts]
-- ==== Proof.Spec.lean ====
/-
  The function both programs compute, one row at a time.

  For a row `v` of extended reals, `len v` is its Euclidean length floored at the word `0x2B8CBCCC`
  (about 1e-12) and `dir v` is `v` divided entry by entry by that length. Given the unit rows `B c` of a
  codebook and the rows `O c` of its offsets, a row `x` is sent to

    `dir (x + ∑ c, exp (10 · (⟨dir x, B c⟩ − 1)) · O c)`.

  Every entry of the result depends on ONE row of the input and on the whole codebook, which is why a
  grid over blocks of rows computes it block by block.

  The two programs spell the exponent differently: `10 · (s − 1)` on one side and `(−10) · (1 − s)`
  on the other. On the extended reals these agree at every `s`, the two infinities included
  (`scale_law`): at `⊤` both are `⊤`, at `⊥` both are `⊥`, and on the reals it is a ring identity.
  Nothing else separates the two sides, so no finiteness of the inputs is ever used.
-/
import Idealize.ShloMosaic.PureOps.Ideal
import Idealize.ShloMosaic.PureOps.Ideal.Laws
import Idealize.ShloMosaic.Lib.ValueIdx

noncomputable section

namespace Cert.Rbf

open Idealize.ShloMosaic

/-! ## The three words of the exponent -/

/-- The word of `1.0` denotes the real `1`. -/
theorem one_word : Ideal.ofBits .f32 0x3F800000#32 = ((1 : ℝ) : EReal) := by
  simp [Ideal.ofBits, Ideal.ieee, -EReal.coe_mul]; norm_num
/-- The word of `10.0` denotes the real `10`. -/
theorem ten_word : Ideal.ofBits .f32 0x41200000#32 = ((10 : ℝ) : EReal) := by
  simp [Ideal.ofBits, Ideal.ieee, -EReal.coe_mul]; norm_num
/-- The word of `-10.0` denotes the real `-10`. -/
theorem negTen_word : Ideal.ofBits .f32 0xC1200000#32 = ((-10 : ℝ) : EReal) := by
  simp [Ideal.ofBits, Ideal.ieee, -EReal.coe_mul]; norm_num

/-- `10 · (s − 1) = (−10) · (1 − s)` at every extended real `s`. -/
theorem scale_law (s : EReal) :
    Ideal.ofBits .f32 0x41200000#32 * (s - Ideal.ofBits .f32 0x3F800000#32)
      = Ideal.ofBits .f32 0xC1200000#32 * (Ideal.ofBits .f32 0x3F800000#32 - s) := by
  rw [one_word, ten_word, negTen_word]
  induction s using EReal.rec with
  | bot =>
    rw [EReal.bot_sub, EReal.coe_sub_bot, EReal.coe_mul_bot_of_pos (by norm_num), EReal.coe_mul_top_of_neg (by norm_num)]
  | top =>
    rw [EReal.top_sub_coe, EReal.sub_top, EReal.coe_mul_top_of_pos (by norm_num), EReal.coe_mul_bot_of_neg (by norm_num)]
  | coe r =>
    rw [← EReal.coe_sub, ← EReal.coe_mul, ← EReal.coe_sub, ← EReal.coe_mul]
    congr 1; ring

/-! ## The row function -/

/-- The Euclidean length of a row, floored at the word `0x2B8CBCCC`. -/
def len {D : ℕ} (v : Fin D → EReal) : EReal :=
  max (Ideal.sqrt (∑ k : Fin D, v k * v k)) (Ideal.ofBits .f32 0x2B8CBCCC#32)

/-- A row divided by its floored length. -/
def dir {D : ℕ} (v : Fin D → EReal) (d : Fin D) : EReal := Ideal.div (v d) (len v)

/-- The weight of a similarity `s`: `exp (10 · (s − 1))`. -/
def weight (s : EReal) : EReal :=
  Ideal.exp (Ideal.ofBits .f32 0x41200000#32 * (s - Ideal.ofBits .f32 0x3F800000#32))

/-- The same weight in the other spelling, `exp ((−10) · (1 − s))`. -/
theorem weight_eq (s : EReal) :
    Ideal.exp (Ideal.ofBits .f32 0xC1200000#32 * (Ideal.ofBits .f32 0x3F800000#32 - s)) = weight s := by
  unfold weight; rw [scale_law]

/-- A row plus the weighted sum of the offsets' rows, the weights those of the row's direction against
    each codebook row. -/
def moved {D C : ℕ} (x : Fin D → EReal) (B O : Fin C → Fin D → EReal) (d : Fin D) : EReal :=
  x d + ∑ c : Fin C, weight (∑ k : Fin D, dir x k * B c k) * O c d

/-- The row's image: the moved row, divided by its floored length. -/
def rowOut {D C : ℕ} (x : Fin D → EReal) (B O : Fin C → Fin D → EReal) : Fin D → EReal :=
  dir (moved x B O)

/-! ## The whole array -/

open Idealize.ShloMosaic.ValueIdx in
/-- The result array as one function of the three argument arrays: entry `(n, d)` is entry `d` of the image
    of row `n` of `x`, against the codebook `P` with each row divided by its floored length and the offsets `O`. -/
def G {N D C : ℕ} (x : (⟨2, ![N, D]⟩ : Shape).Idx → EReal) (P O : (⟨2, ![C, D]⟩ : Shape).Idx → EReal) :
    (⟨2, ![N, D]⟩ : Shape).Idx → EReal :=
  fun i => rowOut (fun k => x (ix2 (i 0) k)) (fun c k => dir (fun k' => P (ix2 c k')) k) (fun c k => O (ix2 c k)) (i 1)

open Idealize.ShloMosaic.ValueIdx in
theorem G_apply {N D C : ℕ} (x : (⟨2, ![N, D]⟩ : Shape).Idx → EReal) (P O : (⟨2, ![C, D]⟩ : Shape).Idx → EReal)
    (n : Fin N) (d : Fin D) :
    G x P O (ix2 n d)
      = rowOut (fun k => x (ix2 n k)) (fun c k => dir (fun k' => P (ix2 c k')) k) (fun c k => O (ix2 c k)) d := rfl

end Cert.Rbf

end
-- ==== Proof.RefValue.lean ====
/-
  The reference's result array is `G` of its three arguments.

  The reference is read one stage at a time, each stage at explicit coordinates: the sum of squares of a row,
  the row's floored length, the row's direction; the similarity of two directions; its weight, where the
  reference's spelling `(−10) · (1 − s)` meets `10 · (s − 1)` (`weight_eq`); the moved row; its floored length;
  the quotient. The host's sums start from the zero word, which denotes `0`.
-/
import proofs.«125627_j70901320122886_1_alg».proof.Proof.Gen.ReferenceIdeal.Read
import proofs.«125627_j70901320122886_1_alg».proof.Proof.Spec

noncomputable section

namespace Cert.Rbf.Ref

open Cert.ReferenceIdeal Cert.ReferenceIdeal.Read Idealize.ShloMosaic Idealize.ShloMosaic.ValueIdx Cert.Rbf

local macro "idx2" : term => `(funext fun a => Fin.ext (by match a with | ⟨0, _⟩ => rfl | ⟨1, _⟩ => rfl))
local macro "idx1" : term => `(funext fun a => Fin.ext (by match a with | ⟨0, _⟩ => rfl))

variable (x0 : S32768x1024.Idx → EReal) (x1 x2 : S2048x1024.Idx → EReal)

/-! ## The direction of an input row -/

theorem sq_row0 (p : Fin 32768) :
    val_main_v1 (F := Ideal) x0 (ix1 p) = ∑ k : Fin 1024, x0 (ix2 p k) * x0 (ix2 p k) := by
  rw [val_main_v1_apply]
  simp only [val_main_cst_apply, val_main_v0_apply, Ideal.ofBits_def, Ideal.mulf_def, Ideal.ofBits_zero_f32, zero_add]
  refine Finset.sum_congr rfl fun k _ => ?_
  have e : idx_main_v1 (ix1 p) k = ix2 p k := idx2
  rw [e]

theorem len_row0 (p : Fin 32768) :
    val_main_v5 (F := Ideal) x0 (ix2 p (0 : Fin 1)) = len (fun k => x0 (ix2 p k)) := by
  rw [val_main_v5_apply, val_main_v3_apply, val_main_v2_apply, val_main_v4_apply, val_main_cst_0_apply]
  have e : idx_main_v2 (ix2 p (0 : Fin 1)) = ix1 p := idx1
  rw [e, sq_row0]
  rfl

theorem dir_row0 (p : Fin 32768) (k : Fin 1024) :
    val_main_v7 (F := Ideal) x0 (ix2 p k) = dir (fun k => x0 (ix2 p k)) k := by
  rw [val_main_v7_apply, val_main_v6_apply]
  have e : idx_main_v6 (ix2 p k) = ix2 p (0 : Fin 1) := idx2
  rw [e, len_row0]
  rfl

/-! ## The direction of a codebook row -/

theorem sq_row1 (c : Fin 2048) :
    val_main_v9 (F := Ideal) x1 (ix1 c) = ∑ k : Fin 1024, x1 (ix2 c k) * x1 (ix2 c k) := by
  rw [val_main_v9_apply]
  simp only [val_main_cst_1_apply, val_main_v8_apply, Ideal.ofBits_def, Ideal.mulf_def, Ideal.ofBits_zero_f32, zero_add]
  refine Finset.sum_congr rfl fun k _ => ?_
  have e : idx_main_v9 (ix1 c) k = ix2 c k := idx2
  rw [e]

theorem len_row1 (c : Fin 2048) :
    val_main_v13 (F := Ideal) x1 (ix2 c (0 : Fin 1)) = len (fun k => x1 (ix2 c k)) := by
  rw [val_main_v13_apply, val_main_v11_apply, val_main_v10_apply, val_main_v12_apply, val_main_cst_2_apply]
  have e : idx_main_v10 (ix2 c (0 : Fin 1)) = ix1 c := idx1
  rw [e, sq_row1]
  rfl

theorem dir_row1 (c : Fin 2048) (k : Fin 1024) :
    val_main_v15 (F := Ideal) x1 (ix2 c k) = dir (fun k => x1 (ix2 c k)) k := by
  rw [val_main_v15_apply, val_main_v14_apply]
  have e : idx_main_v14 (ix2 c k) = ix2 c (0 : Fin 1) := idx2
  rw [e, len_row1]
  rfl

/-! ## Similarities, weights, the moved row -/

theorem sim (p : Fin 32768) (c : Fin 2048) :
    val_main_v16 (F := Ideal) x0 x1 (ix2 p c)
      = ∑ k : Fin 1024, dir (fun k => x0 (ix2 p k)) k * dir (fun k => x1 (ix2 c k)) k := by
  rw [val_main_v16_apply]
  refine Finset.sum_congr rfl fun k _ => ?_
  have el : lidx_main_v16 (ix2 p c) k = ix2 p k := idx2
  have er : ridx_main_v16 (ix2 p c) k = ix2 c k := idx2
  rw [el, er, dir_row0, dir_row1]

theorem wgt (p : Fin 32768) (c : Fin 2048) :
    val_main_v21 (F := Ideal) x0 x1 (ix2 p c)
      = weight (∑ k : Fin 1024, dir (fun k => x0 (ix2 p k)) k * dir (fun k => x1 (ix2 c k)) k) := by
  rw [val_main_v21_apply, val_main_v20_apply, val_main_v19_apply, val_main_cst_4_apply, val_main_v18_apply,
    val_main_v17_apply, val_main_cst_3_apply, sim]
  simp only [Ideal.hostUnary_exp_def, Ideal.mulf_def, Ideal.subf_def, Ideal.ofBits_def]
  exact weight_eq _

theorem moved_row (p : Fin 32768) (q : Fin 1024) :
    val_main_v23 (F := Ideal) x0 x1 x2 (ix2 p q)
      = moved (fun k => x0 (ix2 p k)) (fun c k => dir (fun k' => x1 (ix2 c k')) k) (fun c k => x2 (ix2 c k)) q := by
  rw [val_main_v23_apply, val_main_v22_apply]
  simp only [Ideal.addf_def]
  unfold moved
  refine congrArg (x0 (ix2 p q) + ·) (Finset.sum_congr rfl fun c _ => ?_)
  have el : lidx_main_v22 (ix2 p q) c = ix2 p c := idx2
  have er : ridx_main_v22 (ix2 p q) c = ix2 c q := idx2
  rw [el, er, wgt]

/-! ## The quotient by the moved row's length -/

theorem sq_moved (p : Fin 32768) :
    val_main_v25 (F := Ideal) x0 x1 x2 (ix1 p)
      = ∑ k : Fin 1024,
          moved (fun k => x0 (ix2 p k)) (fun c k => dir (fun k' => x1 (ix2 c k')) k) (fun c k => x2 (ix2 c k)) k
          * moved (fun k => x0 (ix2 p k)) (fun c k => dir (fun k' => x1 (ix2 c k')) k) (fun c k => x2 (ix2 c k)) k := by
  rw [val_main_v25_apply]
  simp only [val_main_cst_5_apply, val_main_v24_apply, Ideal.ofBits_def, Ideal.mulf_def, Ideal.ofBits_zero_f32, zero_add]
  refine Finset.sum_congr rfl fun k _ => ?_
  have e : idx_main_v25 (ix1 p) k = ix2 p k := idx2
  rw [e, moved_row]

theorem len_moved (p : Fin 32768) :
    val_main_v29 (F := Ideal) x0 x1 x2 (ix2 p (0 : Fin 1))
      = len (moved (fun k => x0 (ix2 p k)) (fun c k => dir (fun k' => x1 (ix2 c k')) k) (fun c k => x2 (ix2 c k))) := by
  rw [val_main_v29_apply, val_main_v27_apply, val_main_v26_apply, val_main_v28_apply, val_main_cst_6_apply]
  have e : idx_main_v26 (ix2 p (0 : Fin 1)) = ix1 p := idx1
  rw [e, sq_moved]
  rfl

/-- The reference's first result is `G` of the arguments. -/
theorem result_eq : val_main_v31 (F := Ideal) x0 x1 x2 = G x0 x1 x2 := by
  funext i
  obtain ⟨p, q, rfl⟩ : ∃ (p : Fin 32768) (q : Fin 1024), i = ix2 p q := ⟨i 0, i 1, eq_ix2 i⟩
  rw [val_main_v31_apply, val_main_v30_apply]
  have e : idx_main_v30 (ix2 p q) = ix2 p (0 : Fin 1) := idx2
  rw [e, len_moved, moved_row, G_apply]
  rfl

end Cert.Rbf.Ref

end
-- ==== Proof.HostValue.lean ====
/-
  What the host lines around the region compute.

  Before the region the program divides each codebook row by its floored length, transposes the result
  and changes its float format (the identity on exact values): entry `(k, c)` of what the region finds
  is coordinate `k` of the direction of codebook row `c`. The offsets reach the region through a change
  of format only. After the region the program sums the squares of the offsets' entries, a value that
  does not depend on the region at all.
-/
import proofs.«125627_j70901320122886_1_alg».proof.Proof.Gen.KernelIdeal.Frame
import proofs.«125627_j70901320122886_1_alg».proof.Proof.RefValue
import Idealize.ShloMosaic.Lib.ValueLayout
import Idealize.ShloMosaic.Lib.StableHlo.Run

noncomputable section

namespace Cert.Rbf.Host

open Cert.KernelIdeal Cert.KernelIdeal.Gen Idealize.ShloMosaic Idealize.ShloMosaic.TcCoe Idealize.SL.Sem
open Idealize.ShloMosaic.ValueIdx Cert.Rbf

/-! ## The codebook's directions, transposed -/

/-- The codebook's rows, each divided by its floored length, as the host spells it. -/
def unitCode (P : FVec Ideal S2048x1024 .f32) : FVec Ideal S2048x1024 .f32 :=
  Host.divf P (broadcastInDim S2048x1024 ![0, 1] bcast_S2048x1_S2048x1024_0_1
    (maximumf (Host.sqrt (broadcastInDim S2048x1 ![0] bcast_S2048_S2048x1_0
        (Host.reduceAdd (mulf P P) (constant S_ .f32 0x00000000#32) reducesTo_S2048x1024_S2048_d1 h_S_)))
      (broadcastInDim S2048x1 ![] bcast_S_S2048x1 (constant S_ .f32 0x2B8CBCCC#32))))

/-- The reference spells the same rows with the same operations. -/
theorem unitCode_eq (P : FVec Ideal S2048x1024 .f32) :
    unitCode P = Cert.ReferenceIdeal.Read.val_main_v15 (F := Ideal) P := rfl

theorem unitCode_apply (P : FVec Ideal S2048x1024 .f32) (c : Fin 2048) (k : Fin 1024) :
    unitCode P (ix2 c k) = dir (fun k' => P (ix2 c k')) k := by
  rw [unitCode_eq]
  exact Cert.Rbf.Ref.dir_row1 P c k

/-- The directions transposed, as the region finds them. -/
def codeT (P : FVec Ideal S2048x1024 .f32) : FVec Ideal S1024x2048 .bf16 :=
  truncf .bf16 (transpose S1024x2048 [1, 0] (unitCode P) transposes_S2048x1024_S1024x2048_1_0) bitsLt_bf16_f32

theorem codeT_apply (P : FVec Ideal S2048x1024 .f32) (k : Fin 1024) (c : Fin 2048) :
    codeT P (ix2 k c) = dir (fun k' => P (ix2 c k')) k := by
  show transpose S1024x2048 [1, 0] (unitCode P) transposes_S2048x1024_S1024x2048_1_0 (ix2 k c) = _
  rw [transpose_ix2_apply, unitCode_apply]

variable (m : (ℓ : Loc nD τ sig) → Buf (Elt Ideal) ℓ)

/-- The second window's array at region entry. -/
theorem V_code (c : Dev nD) :
    (V m c main_v9 : S1024x2048.Idx → EReal) = codeT (m ((c : Thread nD τ).loc main_arg1)) := by
  show StableHlo.after hostOps0 (fun b => m (c, b)) (Proc.devRef .tc main_v9) = _
  after_results
  rfl

/-- The third window's array at region entry: the offsets. -/
theorem V_offsets (c : Dev nD) :
    (V m c main_v10 : S2048x1024.Idx → EReal) = (m ((c : Thread nD τ).loc main_arg2) : S2048x1024.Idx → EReal) := by
  show StableHlo.after hostOps0 (fun b => m (c, b)) (Proc.devRef .tc main_v10) = _
  after_results
  rfl

/-! ## The sum of the offsets' squares, after the region -/

/-- The second result: the host's sum of the squares of the offsets, whatever the region wrote. -/
theorem tail_sum (c : Dev nD) :
    Pipeline.afterTail₀ cfgs (dats m) 0 (V0 m) [hostOps1] c main_v13
      = Host.reduceAdd (F := Ideal)
          (mulf (m ((c : Thread nD τ).loc main_arg2) : FVec Ideal S2048x1024 .f32) (m ((c : Thread nD τ).loc main_arg2)))
          (constant S_ .f32 0x00000000#32) reducesTo_S2048x1024_S_d0_1 h_S_ := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2
      (by exact (by decide : ∀ w, Pipeline.arrRef spec0 w ≠ main_arg2))).trans (V_main_arg2 m c)
  rw [e]

end Cert.Rbf.Host

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«125627_j70901320122886_1_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.BodyValue.lean ====
/-
  What the kernel body stores, entry by entry.

  The body receives a block of 512 rows `x0`, the transposed codebook directions `x1` (entry `(k, c)` is
  coordinate `k` of direction `c`) and the offsets `x2`. Entry `(p, q)` of what it stores is entry `q` of the
  image of row `p` of the block: every step of the body is read at explicit coordinates — the lane sum of
  squares as a sum over the row, the keepdims column cast and broadcast back over the row, each product
  into the zero accumulator as a sum over the contracted axis, a change of float format as the identity.
-/
import proofs.«125627_j70901320122886_1_alg».proof.Proof.Gen.KernelIdeal.Skeleton
import proofs.«125627_j70901320122886_1_alg».proof.Proof.Spec
import proofs.«125627_j70901320122886_1_alg».proof.Proof.LibKeepdims
import proofs.«125627_j70901320122886_1_alg».proof.Proof.LibBlockMatmul
import Idealize.ShloMosaic.Lib.Pipeline.Value
import Idealize.ShloMosaic.Lib.ValueIdx
import Idealize.ShloMosaic.PureOps.Ideal.Laws

noncomputable section

namespace Cert.Rbf.Body

open Cert.KernelIdeal Cert.KernelIdeal.Gen Idealize.ShloMosaic Idealize.ShloMosaic.ValueIdx Cert.Rbf

/-! ## Rows divided by their floored lengths -/

/-- A block's rows, each divided by its floored length, as the body spells it. -/
def unitRows (v : FVec Ideal S512x1024 .f32) : FVec Ideal S512x1024 .f32 :=
  divf v (broadcastTo S512x1024
    (maximumf (sqrt (shapeCast S512x1
        (multiReduction .add [1] S512 (mulf v v) 0x00000000#32 reduces_S512x1024_S512 (.inl rfl) rfl) shapeCasts_S512_S512x1))
      (broadcast S512x1 (Scalar.ofBits .f32 0x2B8CBCCC#32)))
    broadcasts_S512x1_S512x1024)

theorem unitRows_apply (v : FVec Ideal S512x1024 .f32) (p : Fin 512) (q : Fin 1024) :
    unitRows v (ix2 p q) = dir (fun k => v (ix2 p k)) q := by
  unfold unitRows dir
  refine congrArg (Ideal.div (v (ix2 p q))) ?_
  refine (Cert.LibKeepdims.broadcastTo_a1_ab_apply _ _ p q).trans ?_
  unfold len
  refine congrArg (fun z => max (Ideal.sqrt z) (Ideal.ofBits .f32 0x2B8CBCCC#32)) ?_
  refine (Cert.LibKeepdims.shapeCast_a_a1_apply _ _ p (0 : Fin 1)).trans ?_
  exact Cert.LibKeepdims.reduceAdd_row reduces_S512x1024_S512 (mulf v v) p

/-! ## Similarities, weights, the moved rows -/

variable (x0 : FVec Ideal S512x1024 .f32) (x1 : FVec Ideal S1024x2048 .bf16) (x2 : FVec Ideal S2048x1024 .bf16)

/-- The similarities of the block's row directions against the codebook directions. -/
def sims : FVec Ideal S512x2048 .f32 :=
  matmul dot_S512x1024_S1024x2048_S512x2048_1_0_0_1_n_n none (truncf .bf16 (unitRows x0) bitsLt_bf16_f32)
    (shapeCast S1024x2048 x1 shapeCasts_S1024x2048_S1024x2048) (constant S512x2048 .f32 0x00000000#32)

theorem sims_apply (p : Fin 512) (c : Fin 2048) :
    sims x0 x1 (ix2 p c) = ∑ k : Fin 1024, dir (fun k => x0 (ix2 p k)) k * x1 (ix2 k c) := by
  unfold sims
  refine (Cert.BlockMatmul.matmul_zero_fin dot_S512x1024_S1024x2048_S512x2048_1_0_0_1_n_n rfl rfl
    (fun _ _ => rfl) (fun _ _ => rfl) (fun _ _ => rfl) (fun _ _ => rfl) none _ _ (ix2 p c)).trans ?_
  refine Finset.sum_congr rfl fun k _ => ?_
  show unitRows x0 (ix2 p k) * shapeCast S1024x2048 x1 shapeCasts_S1024x2048_S1024x2048 (ix2 k c) = _
  rw [unitRows_apply, shapeCast_self]

/-- Their weights. -/
def wts : FVec Ideal S512x2048 .f32 :=
  exp (mulf (broadcast S512x2048 (Scalar.ofBits .f32 0x41200000#32))
    (subf (sims x0 x1) (broadcast S512x2048 (Scalar.ofBits .f32 0x3F800000#32))))

theorem wts_apply (p : Fin 512) (c : Fin 2048) :
    wts x0 x1 (ix2 p c) = weight (∑ k : Fin 1024, dir (fun k => x0 (ix2 p k)) k * x1 (ix2 k c)) := by
  show Ideal.exp (Ideal.ofBits .f32 0x41200000#32 * (sims x0 x1 (ix2 p c) - Ideal.ofBits .f32 0x3F800000#32)) = _
  rw [sims_apply]
  rfl

/-- The block's rows, each moved by the weighted sum of the offsets' rows. -/
def movedRows : FVec Ideal S512x1024 .f32 :=
  addf x0 (matmul dot_S512x2048_S2048x1024_S512x1024_1_0_0_1_n_n none (truncf .bf16 (wts x0 x1) bitsLt_bf16_f32)
    (shapeCast S2048x1024 x2 shapeCasts_S2048x1024_S2048x1024) (constant S512x1024 .f32 0x00000000#32))

theorem movedRows_apply (p : Fin 512) (q : Fin 1024) :
    movedRows x0 x1 x2 (ix2 p q)
      = moved (fun k => x0 (ix2 p k)) (fun c k => x1 (ix2 k c)) (fun c k => x2 (ix2 c k)) q := by
  unfold movedRows moved
  refine congrArg (x0 (ix2 p q) + ·) ?_
  refine (Cert.BlockMatmul.matmul_zero_fin dot_S512x2048_S2048x1024_S512x1024_1_0_0_1_n_n rfl rfl
    (fun _ _ => rfl) (fun _ _ => rfl) (fun _ _ => rfl) (fun _ _ => rfl) none _ _ (ix2 p q)).trans ?_
  refine Finset.sum_congr rfl fun c _ => ?_
  show wts x0 x1 (ix2 p c) * shapeCast S2048x1024 x2 shapeCasts_S2048x1024_S2048x1024 (ix2 c q) = _
  rw [wts_apply, shapeCast_self]

/-! ## The stored value -/

/-- The body's one stored value is the moved rows divided by their floored lengths. -/
theorem pay_eq : k0_pay1 (F := Ideal) x0 x1 x2 = unitRows (movedRows x0 x1 x2) := rfl

/-- Entry `(p, q)` of the stored value is entry `q` of the image of row `p` of the block. -/
theorem pay_apply (p : Fin 512) (q : Fin 1024) :
    k0_pay1 (F := Ideal) x0 x1 x2 (ix2 p q)
      = rowOut (fun k => x0 (ix2 p k)) (fun c k => x1 (ix2 k c)) (fun c k => x2 (ix2 c k)) q := by
  rw [pay_eq, unitRows_apply]
  unfold rowOut
  exact congrArg (fun v => dir v q) (funext fun k => movedRows_apply x0 x1 x2 p k)

end Cert.Rbf.Body

end
-- ==== Proof.ArrayValue.lean ====
/-
  From the blocks to the whole result array.

  Grid point `t` reads rows `512·t … 512·t + 511` of the input, the whole transposed codebook directions and the
  whole offsets, and writes back rows `512·t … 512·t + 511` of the result. Since an entry of `G` depends on one
  input row only, what point `t` writes back is block `t` of `G` of the three argument arrays; the 64 blocks
  tile the result (row `r` lies in block `r / 512`), so the result array ends as `G`.
-/
import proofs.«125627_j70901320122886_1_alg».proof.Proof.Gen.KernelIdeal.Frame
import proofs.«125627_j70901320122886_1_alg».proof.Proof.BodyValue
import proofs.«125627_j70901320122886_1_alg».proof.Proof.HostValue
import Idealize.ShloMosaic.Lib.Pipeline.Value

noncomputable section

namespace Cert.Rbf.Array

open Cert.KernelIdeal Cert.KernelIdeal.Gen Idealize.ShloMosaic Idealize.ShloMosaic.TcCoe Idealize.SL.Sem
open Idealize.ShloMosaic.Pipeline (Dat)
open Idealize.ShloMosaic.ValueIdx Cert.Rbf

variable (m : (ℓ : Loc nD τ sig) → Buf (Elt Ideal) ℓ)

theorem offsets_zero : (![0, 0] : Fin 2 → Nat) = fun _ => 0 := funext fun a => by fin_cases a <;> rfl

/-- The printed index maps over the grid: the input's and the result's blocks move down one block of rows per
    point; the codebook's and the offsets' blocks are the whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## An entry of the stored block from the rows it depends on -/

/-- If row `p` of the block is row `n` of the input array, the second operand holds the transposed codebook
    directions and the third the offsets, then entry `(p, q)` of the stored value is entry `(n, q)` of `G`. -/
theorem block_entry (x0 : FVec Ideal S512x1024 .f32) (x1 : FVec Ideal S1024x2048 .bf16) (x2 : FVec Ideal S2048x1024 .bf16)
    (A0 : S32768x1024.Idx → EReal) (A1 A2 : S2048x1024.Idx → EReal) (p : Fin 512) (q : Fin 1024) (n : Fin 32768)
    (h0 : ∀ k : Fin 1024, x0 (ix2 p k) = A0 (ix2 n k))
    (h1 : ∀ (k : Fin 1024) (c : Fin 2048), x1 (ix2 k c) = dir (fun k' => A1 (ix2 c k')) k)
    (h2 : ∀ (c : Fin 2048) (k : Fin 1024), x2 (ix2 c k) = A2 (ix2 c k)) :
    k0_pay1 (F := Ideal) x0 x1 x2 (ix2 p q) = G A0 A1 A2 (ix2 n q) := by
  rw [Cert.Rbf.Body.pay_apply, G_apply]
  have e0 : (fun k : Fin 1024 => x0 (ix2 p k)) = fun k => A0 (ix2 n k) := funext h0
  have e1 : (fun (c : Fin 2048) (k : Fin 1024) => x1 (ix2 k c)) = fun c k => dir (fun k' => A1 (ix2 c k')) k :=
    funext fun c => funext fun k => h1 k c
  have e2 : (fun (c : Fin 2048) (k : Fin 1024) => x2 (ix2 c k)) = fun c k => A2 (ix2 c k) :=
    funext fun c => funext fun k => h2 c k
  rw [e0, e1, e2]

/-! ## The three blocks a point reads -/

theorem read_input (c : Dev nD) (t : Fin cfg0.N) (p : Fin 512) (k : Fin 1024) (hn : t.val * 512 + p.val < 32768) :
    iblk m c 0 t (ix2 p k) = m ((c : Thread nD τ).loc main_arg0) (ix2 ⟨t.val * 512 + p.val, hn⟩ k) := by
  obtain ⟨e00, e01, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

theorem read_code (c : Dev nD) (t : Fin cfg0.N) (k : Fin 1024) (cc : Fin 2048) :
    iblk m c 1 t (ix2 k cc) = dir (fun k' => m ((c : Thread nD τ).loc main_arg1) (ix2 cc k')) k := by
  obtain ⟨-, -, e10, e11, -⟩ := idx_facts t
  show V m c main_v9 (((cfg0.win 1).blk t).view.emb (ix2 k cc)) = _
  have he : ((cfg0.win 1).blk t).view.emb (ix2 k cc) = ix2 k cc := funext fun a => Fin.ext (by
    match a with
    | ⟨0, _⟩ => show win0_1.index t (0 : Fin 2) * 1024 + 1 * k.val = k.val; omega
    | ⟨1, _⟩ => show win0_1.index t (1 : Fin 2) * 2048 + 1 * cc.val = cc.val; omega)
  rw [he]
  exact (congrFun (Cert.Rbf.Host.V_code m c) (ix2 k cc)).trans (Cert.Rbf.Host.codeT_apply _ k cc)

theorem read_offsets (c : Dev nD) (t : Fin cfg0.N) (cc : Fin 2048) (k : Fin 1024) :
    iblk m c 2 t (ix2 cc k) = m ((c : Thread nD τ).loc main_arg2) (ix2 cc k) := by
  obtain ⟨-, -, -, -, e20, e21, -⟩ := idx_facts t
  show V m c main_v10 (((cfg0.win 2).blk t).view.emb (ix2 cc k)) = _
  have he : ((cfg0.win 2).blk t).view.emb (ix2 cc k) = ix2 cc k := funext fun a => Fin.ext (by
    match a with
    | ⟨0, _⟩ => show win0_2.index t (0 : Fin 2) * 2048 + 1 * cc.val = cc.val; omega
    | ⟨1, _⟩ => show win0_2.index t (1 : Fin 2) * 1024 + 1 * k.val = k.val; omega)
  rw [he]
  exact congrFun (Cert.Rbf.Host.V_offsets m c) (ix2 cc k)

/-! ## What a point writes back, the cover, the array -/

/-- What point `t` writes back is block `t` of `G` of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero offsets_zero]
  simp only [View.ld_unit_zero (S := S512x1024) offsets_zero, View.ld_unit_zero (S := S1024x2048) offsets_zero,
    View.ld_unit_zero (S := S2048x1024) offsets_zero]
  funext y
  obtain ⟨p, q, rfl⟩ : ∃ (p : Fin 512) (q : Fin 1024), y = ix2 p q := ⟨y 0, y 1, eq_ix2 y⟩
  obtain ⟨-, -, -, -, -, -, e30, e31⟩ := idx_facts t
  have hN : grid0.N = 64 := N_0
  have ht : t.val < 64 := hN ▸ t.isLt
  have hn : t.val * 512 + p.val < 32768 := by have := p.isLt; omega
  have hemb : ((cfg0.win 3).blk t).view.emb (ix2 p q) = ix2 (⟨t.val * 512 + p.val, hn⟩ : Fin 32768) q :=
    funext fun a => Fin.ext (by
      match a with
      | ⟨0, _⟩ => show win0_3.index t (0 : Fin 2) * 512 + 1 * p.val = t.val * 512 + p.val; omega
      | ⟨1, _⟩ => show win0_3.index t (1 : Fin 2) * 1024 + 1 * q.val = q.val; omega)
  show k0_pay1 (F := Ideal) (iblk m c 0 t) (iblk m c 1 t) (iblk m c 2 t) (ix2 p q)
    = G (m ((c : Thread nD τ).loc main_arg0)) (m ((c : Thread nD τ).loc main_arg1)) (m ((c : Thread nD τ).loc main_arg2))
        (((cfg0.win 3).blk t).view.emb (ix2 p q))
  rw [hemb]
  exact block_entry (iblk m c 0 t) (iblk m c 1 t) (iblk m c 2 t) _ _ _ p q ⟨t.val * 512 + p.val, hn⟩
    (fun k => read_input m c t p k hn) (fun k cc => read_code m c t k cc) (fun cc k => read_offsets m c t cc k)

/-- An index of the result is in point `t`'s block iff each coordinate is in the block's range on its axis. -/
theorem mem_blk (t : Fin cfg0.N) (i : S32768x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v11).slice (win0_3.rect t)).set ↔ _
  rw [View.set_slice_whole, Rect.mem_set_unit]
  exact Iff.rfl

/-- Every index of the result lies in some point's block: row `r` in that of point `r / 512`. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 64 := N_0
  have hlt : (i 0).val / 512 < grid0.N := by rw [hN]; omega
  obtain ⟨-, -, -, -, -, -, e30, e31⟩ := idx_facts ⟨(i 0).val / 512, hlt⟩
  refine ⟨⟨(i 0).val / 512, hlt⟩, flush0_3 _, ?_⟩
  rw [mem_blk]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, hlt⟩ (1 : Fin 2) * 1024 ≤ (i 1).val
      ∧ (i 1).val < win0_3.index ⟨(i 0).val / 512, hlt⟩ (1 : Fin 2) * 1024 + 1024
    omega

/-- The result array after the run is `G` of the three argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) cover

end Cert.Rbf.Array

end
-- ==== Proof.lean ====
/-
  The kernel against its reference, on the extended reals.

  Both programs send each row `x` of the input to `dir (x + ∑ c, exp (10 · (⟨dir x, dir P_c⟩ − 1)) · O_c)`,
  where `dir v` is `v` divided by its Euclidean length floored at the word `0x2B8CBCCC`, `P_c` are the rows
  of the codebook and `O_c` the rows of its offsets (`Cert.Rbf.G`, Proof/Spec.lean); beside it both return
  the sum of the squares of the offsets' entries.

  The reference computes this on whole arrays (Proof/RefValue.lean reads its stages at an index). The kernel
  divides the codebook's rows by their lengths and transposes them on the host (Proof/HostValue.lean), then
  runs a grid of 64 points over blocks of 512 input rows: the body's stored value at an entry is the row
  function of the block's row (Proof/BodyValue.lean), and since an entry depends on one input row only, the
  blocks written back tile the result array into `G` of the arguments (Proof/ArrayValue.lean).

  The one law between the two spellings is `10 · (s − 1) = (−10) · (1 − s)`, true at every extended real;
  sums are read in the same order on both sides and a change of float format is the identity, so the
  finiteness of the inputs is never used. The idealization rewrote no operation, so `preserves` is trivial.
  The second result is the same host sum on both sides.
-/
import proofs.«125627_j70901320122886_1_alg».proof.Defs
import proofs.«125627_j70901320122886_1_alg».proof.Proof.Gen.Kernel
import proofs.«125627_j70901320122886_1_alg».proof.Proof.Gen.Kernel.Skeleton
import proofs.«125627_j70901320122886_1_alg».proof.Proof.Gen.Kernel.Launch
import proofs.«125627_j70901320122886_1_alg».proof.Proof.Gen.Kernel.Points
import proofs.«125627_j70901320122886_1_alg».proof.Proof.Gen.Kernel.Frame
import proofs.«125627_j70901320122886_1_alg».proof.Proof.Gen.KernelIdeal
import proofs.«125627_j70901320122886_1_alg».proof.Proof.Gen.KernelIdeal.Skeleton
import proofs.«125627_j70901320122886_1_alg».proof.Proof.Gen.KernelIdeal.Launch
import proofs.«125627_j70901320122886_1_alg».proof.Proof.Gen.KernelIdeal.Points
import proofs.«125627_j70901320122886_1_alg».proof.Proof.Gen.KernelIdeal.Frame
import proofs.«125627_j70901320122886_1_alg».proof.Proof.Gen.ReferenceIdeal
import proofs.«125627_j70901320122886_1_alg».proof.Proof.Gen.Pre_finite_inputs
import proofs.«125627_j70901320122886_1_alg».proof.Proof.Gen.ReferenceIdeal.Run
import proofs.«125627_j70901320122886_1_alg».proof.Proof.Gen.ReferenceIdeal.Read
import proofs.«125627_j70901320122886_1_alg».proof.Proof.Spec
import proofs.«125627_j70901320122886_1_alg».proof.Proof.RefValue
import proofs.«125627_j70901320122886_1_alg».proof.Proof.HostValue
import proofs.«125627_j70901320122886_1_alg».proof.Proof.ArrayValue
import Idealize.ShloMosaic.Adequacy
import Idealize.ShloMosaic.Init

noncomputable section

namespace Cert.Proof

open Idealize.ShloMosaic Idealize.SL.Sem Cert.Rbf

/-! ## The kernel's run, with both results named -/

section KernelRun

open Cert.KernelIdeal Cert.KernelIdeal.Gen Idealize.ShloMosaic.TcCoe

/-- Every execution of the idealized kernel ends with the first result at `G` of the arguments, the second at
    the host's sum of the offsets' squares, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
        = G (m ((c.tc : Thread nD τ).loc main_arg0)) (m ((c.tc : Thread nD τ).loc main_arg1)) (m ((c.tc : Thread nD τ).loc main_arg2))
      ∧ r.2.mem ((c.tc : Thread nD τ).loc main_v13)
        = Host.reduceAdd (F := Ideal)
            (mulf (m ((c.tc : Thread nD τ).loc main_arg2) : FVec Ideal S2048x1024 .f32) (m ((c.tc : Thread nD τ).loc main_arg2)))
            (constant S_ .f32 0x00000000#32) reducesTo_S2048x1024_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 3).trans (Cert.Rbf.Array.final m c),
      ((h c).2 main_v13 (Pipeline.mem_restRefs_of main_v13 (by decide) (by decide))).trans (Cert.Rbf.Host.tail_sum m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the first result at `G` of the arguments
    and the second at the same host sum. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v31_eq, Cert.Rbf.Ref.result_eq, (hagree c).1, (hagree c).2.1,
      (hagree c).2.2]
  · rw [(h c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
